-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S128x64 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x640000 32) (main_arg2 : FVec F S128x128 .f32) (main_arg3 : FVec F S128x128 .f32) (main_arg4 : FVec F S128 .f32) (main_arg5 : FVec F S128x64 .f32) (main_arg6 : FVec F S128x64 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x640000 : Shape := ⟨2, ![1, 640000]⟩
abbrev S640000 : Shape := ⟨1, ![640000]⟩
abbrev S_ : Shape := ⟨0, ![]⟩
abbrev S50000 : Shape := ⟨1, ![50000]⟩
abbrev S640000x1 : Shape := ⟨2, ![640000, 1]⟩
abbrev S50000x1 : Shape := ⟨2, ![50000, 1]⟩
abbrev S640000x128 : Shape := ⟨2, ![640000, 128]⟩
abbrev S1x128 : Shape := ⟨2, ![1, 128]⟩
abbrev S5000x128 : Shape := ⟨2, ![5000, 128]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 59
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .f32⟩
  | .hbm, ⟨13, _⟩ => ⟨S640000, .f32⟩
  | .hbm, ⟨14, _⟩ => ⟨S_, .f32⟩
  | .hbm, ⟨15, _⟩ => ⟨S50000, .f32⟩
  | .hbm, ⟨16, _⟩ => ⟨S640000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S640000, .i32⟩
  | .hbm, ⟨27, _⟩ => ⟨S640000, .i1⟩
  | .hbm, ⟨28, _⟩ => ⟨S_, .i32⟩
  | .hbm, ⟨29, _⟩ => ⟨S640000, .i32⟩
  | .hbm, ⟨30, _⟩ => ⟨S640000, .i32⟩
  | .hbm, ⟨31, _⟩ => ⟨S640000, .i32⟩
  | .hbm, ⟨32, _⟩ => ⟨S640000x1, .i32⟩
  | .hbm, ⟨33, _⟩ => ⟨S640000x128, .f32⟩
  | .hbm, ⟨34, _⟩ => ⟨S_, .f32⟩
  | .hbm, ⟨35, _⟩ => ⟨S50000x128, .f32⟩
  | .hbm, ⟨36, _⟩ => ⟨S640000x1, .i32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S_, .i32⟩
  | .hbm, ⟨43, _⟩ => ⟨S640000, .i32⟩
  | .hbm, ⟨44, _⟩ => ⟨S640000, .i1⟩
  | .hbm, ⟨45, _⟩ => ⟨S_, .i32⟩
  | .hbm, ⟨46, _⟩ => ⟨S640000, .i32⟩
  | .hbm, ⟨47, _⟩ => ⟨S640000, .i32⟩
  | .hbm, ⟨48, _⟩ => ⟨S640000, .i32⟩
  | .hbm, ⟨49, _⟩ => ⟨S640000x1, .i32⟩
  | .hbm, ⟨50, _⟩ => ⟨S640000x128, .f32⟩
  | .hbm, ⟨51, _⟩ => ⟨S_, .f32⟩
  | .hbm, ⟨52, _⟩ => ⟨S50000x128, .f32⟩
  | .hbm, ⟨53, _⟩ => ⟨S640000x1, .i32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S1x64, .f32⟩
  | .hbm, ⟨58, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S128x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S640000x1_S640000_n_0_0_1_wf : ScatterDims.WF S50000 S640000x1 S640000 [] [0] [0] 1
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)

variable [Facts₀]

def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S50000 : Shape := ⟨1, ![50000]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 81
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S50000x128, .f32⟩
  | .hbm, ⟨23, _⟩ => ⟨S640000x1, .i32⟩
  | .hbm, ⟨24, _⟩ => ⟨S50000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S50000, .f32⟩
  | .hbm, ⟨29, _⟩ => ⟨S640000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S1x640000, .i32⟩
  | .hbm, ⟨47, _⟩ => ⟨S640000, .i32⟩
  | .hbm, ⟨48, _⟩ => ⟨S1x640000, .i32⟩
  | .hbm, ⟨49, _⟩ => ⟨S640000, .i32⟩
  | .hbm, ⟨50, _⟩ => ⟨S_, .i32⟩
  | .hbm, ⟨51, _⟩ => ⟨S640000, .i32⟩
  | .hbm, ⟨52, _⟩ => ⟨S640000, .i1⟩
  | .hbm, ⟨53, _⟩ => ⟨S_, .i32⟩
  | .hbm, ⟨54, _⟩ => ⟨S640000, .i32⟩
  | .hbm, ⟨55, _⟩ => ⟨S640000, .i32⟩
  | .hbm, ⟨56, _⟩ => ⟨S640000, .i32⟩
  | .hbm, ⟨57, _⟩ => ⟨S640000x1, .i32⟩
  | .hbm, ⟨58, _⟩ => ⟨S640000x128, .f32⟩
  | .hbm, ⟨59, _⟩ => ⟨S_, .f32⟩
  | .hbm, ⟨60, _⟩ => ⟨S50000x128, .f32⟩
  | .hbm, ⟨61, _⟩ => ⟨S640000x1, .i32⟩
  | .hbm, ⟨62, _⟩ => ⟨S50000x128, .f32⟩
  | .hbm, ⟨63, _⟩ => ⟨S_, .f32⟩
  | .hbm, ⟨64, _⟩ => ⟨S640000, .f32⟩
  | .hbm, ⟨65, _⟩ => ⟨S_, .f32⟩
  | .hbm, ⟨66, _⟩ => ⟨S50000, .f32⟩
  | .hbm, ⟨67, _⟩ => ⟨S640000x1, .i32⟩
  | .hbm, ⟨68, _⟩ => ⟨S50000, .f32⟩
  | .hbm, ⟨69, _⟩ => ⟨S_, .f32⟩
  | .hbm, ⟨70, _⟩ => ⟨S50000, .f32⟩
  | .hbm, ⟨71, _⟩ => ⟨S50000, .f32⟩
  | .hbm, ⟨72, _⟩ => ⟨S50000x1, .f32⟩
  | .hbm, ⟨73, _⟩ => ⟨S50000x128, .f32⟩
  | .hbm, ⟨74, _⟩ => ⟨S50000x128, .f32⟩
  | .hbm, ⟨75, _⟩ => ⟨S50000x64, .f32⟩
  | .hbm, ⟨76, _⟩ => ⟨S50000x64, .f32⟩
  | .hbm, ⟨77, _⟩ => ⟨S50000x64, .f32⟩
  | .hbm, ⟨78, _⟩ => ⟨S1x64, .f32⟩
  | .hbm, ⟨79, _⟩ => ⟨S50000x64, .f32⟩
  | .hbm, ⟨80, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_4 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S50000_S640000x1_S640000_n_0_0_1_wf : ScatterDims.WF S50000 S640000x1 S640000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The kernel program's run, with every buffer read at the end.

  The program is a stretch of host operations, the first layer's region, a second stretch of host operations and the
  second layer's region. Every weakly fair execution terminates without a fault, and in the final state every buffer
  that outlives the regions holds what the fold through those four segments leaves in it: the host stretches apply their
  operations to what they find, and each region replaces its result array by what its ten write-backs leave and keeps
  everything else. In particular the returned array holds the second region's result array.
-/
import proofs.«171229_j1082331758914_1_alg».proof.Proof.Gen.KernelIdeal.Frame

set_option maxRecDepth 16384

noncomputable section

namespace Cert.KernelIdeal.Sage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, and every buffer that outlives the regions ends at the
    contents the fold through the four segments gives it. -/
theorem run_read : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The run with the returned array and the eight argument arrays read: the result is the second region's result
    array after its last write-back, and no argument has changed. -/
theorem run_result : θ_run defs (onTc (τ := τ) (main (F := F))) ⟨m, fun _ => 0, ρ⟩ (fun r => ∀ c : Dev nD,
      r.2.mem ((c.tc : Thread nD τ).loc main_v40) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨(h c _ (mem_uc main_v40 (by decide))).trans (W4_arr m ρ c 5),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)
    (run_read m ρ)

end Cert.KernelIdeal.Sage

end
-- ==== Proof.LibPlainMatmul.lean ====
/-
  The product of an m × k matrix by a k × n matrix, accumulated into zero, read at an entry.

  The matrix unit's product with the left operand contracted on its second axis and the right on its first, started
  from an accumulator of zeros, has at entry (a, b) the sum over the k contracted coordinates c of A(a, c) · B(c, b).
  The general statement sums over the indices of a one-axis "contraction shape"; that index set is carried onto the
  k coordinates, and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- `A · B` into a zero accumulator, at the exact extended reals, read at `(a, b)`: `∑ c, A (a, c) * B (c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.SageBody.lean ====
/-
  One SAGE linear layer on a block of rows, read at an entry.

  On a block of 5000 rows the body forms  A·Wl + X·Wr + b  (A the block of mean-aggregated neighbour features, X the
  block of the nodes' own features, b one bias row repeated down the block); the first layer then takes the maximum with
  zero. At the exact extended reals a change of float format is the identity, and a matrix product accumulated into
  zeros is the plain sum over the 128 contracted coordinates, so entry (p, q) of the stored block is
      Σ_k A(p,k)·Wl(k,q) + Σ_k X(p,k)·Wr(k,q) + b(0,q)
  (for the first layer: the maximum of that and zero).
-/
import proofs.«171229_j1082331758914_1_alg».proof.Proof.Gen.KernelIdeal.Skeleton
import proofs.«171229_j1082331758914_1_alg».proof.Proof.LibPlainMatmul
import Idealize.ShloMosaic.Lib.ValueLayout
import Idealize.ShloMosaic.Lib.Pipeline.Value

noncomputable section

open scoped BigOperators

namespace Cert.KernelIdeal.Sage

open Cert.KernelIdeal Cert.KernelIdeal.Gen Idealize.ShloMosaic Idealize.ShloMosaic.ValueIdx

/-- Entry (p, q) of one layer before any activation: the two products' sums and the bias row's entry. -/
def entry {n d : ℕ} (A X : (⟨2, ![n, 128]⟩ : Shape).Idx → EReal) (Wl Wr : (⟨2, ![128, d]⟩ : Shape).Idx → EReal)
    (b : (⟨2, ![1, d]⟩ : Shape).Idx → EReal) (p : Fin n) (q : Fin d) : EReal :=
  (∑ k : Fin 128, A (ix2 p k) * Wl (ix2 k q)) + (∑ k : Fin 128, X (ix2 p k) * Wr (ix2 k q)) + b (ix2 (0 : Fin 1) q)

/-- The first layer's stored block at (p, q): the layer's entry, cut off below at zero. -/
theorem pay0_apply (x0 x1 : Vec Ideal S5000x128 .f32) (x2 x3 : Vec Ideal S128x128 .f32) (x4 : Vec Ideal S1x128 .f32)
    (p : Fin 5000) (q : Fin 128) :
    k0_pay1 (F := Ideal) x0 x1 x2 x3 x4 (ix2 p q) = max (entry x0 x1 x2 x3 x4 p q) (Ideal.ofBits .f32 0x00000000#32) := by
  unfold k0_pay1 entry
  show max (_ + _ + _) _ = _
  rw [broadcastTo_1b_ab_apply]
  erw [matmul_plain_zero_apply, matmul_plain_zero_apply]
  simp only [shapeCast_self, truncf_apply]
  rfl

/-- The second layer's stored block at (p, q): the layer's entry. -/
theorem pay1_apply (x0 x1 : Vec Ideal S5000x128 .f32) (x2 x3 : Vec Ideal S128x64 .f32) (x4 : Vec Ideal S1x64 .f32)
    (p : Fin 5000) (q : Fin 64) :
    k1_pay1 (F := Ideal) x0 x1 x2 x3 x4 (ix2 p q) = entry x0 x1 x2 x3 x4 p q := by
  unfold k1_pay1 entry
  show _ + _ + _ = _
  rw [broadcastTo_1b_ab_apply]
  erw [matmul_plain_zero_apply, matmul_plain_zero_apply]
  simp only [shapeCast_self, truncf_apply]

end Cert.KernelIdeal.Sage

end
-- ==== Proof.SageBlocks.lean ====
/-
  From the blocks to the whole array, for each of the two layers.

  The grid has ten points; point t reads rows 5000·t … 5000·t + 4999 of the two feature arrays, the whole of both weight
  matrices and the one bias row, and writes back rows 5000·t … 5000·t + 4999 of the result. The ten row blocks tile the
  50000 rows, so after the region the result array holds, at every (r, q), the layer's entry formed from row r of the
  two feature arrays — whatever those arrays hold when the region is entered.
-/
import proofs.«171229_j1082331758914_1_alg».proof.Proof.Gen.KernelIdeal.Frame
import proofs.«171229_j1082331758914_1_alg».proof.Proof.SageBody

noncomputable section

open scoped BigOperators

namespace Cert.KernelIdeal.Sage

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The first layer as one function of whole arrays: at (r, q) the layer's entry from row r, cut off below at zero. -/
def layer0 (A X : S50000x128.Idx → EReal) (Wl Wr : S128x128.Idx → EReal) (b : S1x128.Idx → EReal) : S50000x128.Idx → EReal :=
  fun i => max (entry A X Wl Wr b (i 0) (i 1)) (Ideal.ofBits .f32 0x00000000#32)

/-- The second layer as one function of whole arrays: at (r, q) the layer's entry from row r. -/
def layer1 (A X : S50000x128.Idx → EReal) (Wl Wr : S128x64.Idx → EReal) (b : S1x64.Idx → EReal) : S50000x64.Idx → EReal :=
  fun i => entry A X Wl Wr b (i 0) (i 1)

/-- Which block each window is on at point t: the row blocks move with t, the weights and the bias stay. -/
theorem blocks0 : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] :=
  (by decide +kernel : ∀ t : Fin grid0.N, _)

theorem blocks1 : ∀ t : Fin cfg1.N, win1_0.index t = ![t.val, 0] ∧ win1_1.index t = ![t.val, 0] ∧ win1_2.index t = ![0, 0]
    ∧ win1_3.index t = ![0, 0] ∧ win1_4.index t = ![0, 0] ∧ win1_5.index t = ![t.val, 0] :=
  (by decide +kernel : ∀ t : Fin grid1.N, _)

/-- What point t of region 0 writes back is block t of the layer's whole-array function. -/
theorem flushed0 (c : Dev nD) (t : Fin cfg0.N) :
    (dat0 V c).flushed 5 t = ((cfg0.win 5).blk t).view.read (Elt Ideal)
      (layer0 (V c main_v24) (V c main_arg0) (V c main_arg2) (V c main_arg3) (V c main_v25)) := by
  show (cfg0.win 5).cut (grid0.coords t) ((dat0 V c).after 5 t) = _
  rw [after0_5]
  unfold out0_5
  rw [View.canon_unit_zero zero_offsets]
  simp only [View.ld_unit_zero (S := S5000x128) zero_offsets, View.ld_unit_zero (S := S128x128) zero_offsets,
    View.ld_unit_zero (S := S1x128) zero_offsets]
  obtain ⟨e0, e1, e2, e3, e4, e5⟩ := blocks0 t
  have ht : t.val < 10 := by have h := t.isLt; have hN : cfg0.N = 10 := N_0; omega
  have h00 : win0_0.index t 0 = t.val := congrFun e0 0
  have h01 : win0_0.index t 1 = 0 := congrFun e0 1
  have h10 : win0_1.index t 0 = t.val := congrFun e1 0
  have h11 : win0_1.index t 1 = 0 := congrFun e1 1
  have h20 : win0_2.index t 0 = 0 := congrFun e2 0
  have h21 : win0_2.index t 1 = 0 := congrFun e2 1
  have h30 : win0_3.index t 0 = 0 := congrFun e3 0
  have h31 : win0_3.index t 1 = 0 := congrFun e3 1
  have h40 : win0_4.index t 0 = 0 := congrFun e4 0
  have h41 : win0_4.index t 1 = 0 := congrFun e4 1
  have h50 : win0_5.index t 0 = t.val := congrFun e5 0
  have h51 : win0_5.index t 1 = 0 := congrFun e5 1
  refine funext fun (j : S5000x128.Idx) => ?_
  obtain ⟨p, q, rfl⟩ : ∃ (p : Fin 5000) (q : Fin 128), j = ix2 p q := ⟨j 0, j 1, eq_ix2 j⟩
  refine (pay0_apply (iblk0 V c 0 t) (iblk0 V c 1 t) (iblk0 V c 2 t) (iblk0 V c 3 t) (iblk0 V c 4 t) p q).trans ?_
  rw [View.read_apply]
  have hr : ((View.whole main_v26).slice ((win0 5).rect t)).emb (ix2 p q) = ix2 (⟨t.val * 5000 + p.val, by omega⟩ : Fin 50000) q :=
    funext fun a => Fin.ext (by
      match a with
      | ⟨0, _⟩ => show win0_5.index t 0 * 5000 + 1 * p.val = t.val * 5000 + p.val; omega
      | ⟨1, _⟩ => show win0_5.index t 1 * 128 + 1 * q.val = q.val; omega)
  rw [hr]
  have hA : ∀ k : Fin 128, iblk0 V c 0 t (ix2 p k) = V c main_v24 (ix2 (⟨t.val * 5000 + p.val, by omega⟩ : Fin 50000) k) := fun k =>
    congrArg (V c main_v24) (funext fun a => Fin.ext (by
      match a with
      | ⟨0, _⟩ => show win0_0.index t 0 * 5000 + 1 * p.val = t.val * 5000 + p.val; omega
      | ⟨1, _⟩ => show win0_0.index t 1 * 128 + 1 * k.val = k.val; omega))
  have hX : ∀ k : Fin 128, iblk0 V c 1 t (ix2 p k) = V c main_arg0 (ix2 (⟨t.val * 5000 + p.val, by omega⟩ : Fin 50000) k) := fun k =>
    congrArg (V c main_arg0) (funext fun a => Fin.ext (by
      match a with
      | ⟨0, _⟩ => show win0_1.index t 0 * 5000 + 1 * p.val = t.val * 5000 + p.val; omega
      | ⟨1, _⟩ => show win0_1.index t 1 * 128 + 1 * k.val = k.val; omega))
  have hWl : ∀ k : Fin 128, iblk0 V c 2 t (ix2 k q) = V c main_arg2 (ix2 k q) := fun k =>
    congrArg (V c main_arg2) (funext fun a => Fin.ext (by
      match a with
      | ⟨0, _⟩ => show win0_2.index t 0 * 128 + 1 * k.val = k.val; omega
      | ⟨1, _⟩ => show win0_2.index t 1 * 128 + 1 * q.val = q.val; omega))
  have hWr : ∀ k : Fin 128, iblk0 V c 3 t (ix2 k q) = V c main_arg3 (ix2 k q) := fun k =>
    congrArg (V c main_arg3) (funext fun a => Fin.ext (by
      match a with
      | ⟨0, _⟩ => show win0_3.index t 0 * 128 + 1 * k.val = k.val; omega
      | ⟨1, _⟩ => show win0_3.index t 1 * 128 + 1 * q.val = q.val; omega))
  have hB : iblk0 V c 4 t (ix2 (0 : Fin 1) q) = V c main_v25 (ix2 (0 : Fin 1) q) :=
    congrArg (V c main_v25) (funext fun a => Fin.ext (by
      match a with
      | ⟨0, _⟩ => show win0_4.index t 0 * 1 + 1 * 0 = 0; omega
      | ⟨1, _⟩ => show win0_4.index t 1 * 128 + 1 * q.val = q.val; omega))
  unfold layer0 entry
  simp only [hA, hX, hWl, hWr, hB]
  rfl

/-- After region 0 the result array holds the layer's whole-array function of the arrays the region found. -/
theorem array0 (c : Dev nD) :
    (dat0 V c).arrAt 5 cfg0.N = layer0 (V c main_v24) (V c main_arg0) (V c main_arg2) (V c main_arg3) (V c main_v25) :=
  (dat0 V c).arrAt_eq_of_cover 5 _ (fun t _ => flushed0 V c t) fun i => by
    have hi0 : (i 0).val < 50000 := (i 0).isLt
    have hi1 : (i 1).val < 128 := (i 1).isLt
    have hN : (i 0).val / 5000 < cfg0.N := by have hN : cfg0.N = 10 := N_0; omega
    refine ⟨⟨(i 0).val / 5000, hN⟩, flush0_5 _, ?_⟩
    obtain ⟨-, -, -, -, -, e5⟩ := blocks0 ⟨(i 0).val / 5000, hN⟩
    have h50 : win0_5.index ⟨(i 0).val / 5000, hN⟩ 0 = (i 0).val / 5000 := congrFun e5 0
    have h51 : win0_5.index ⟨(i 0).val / 5000, hN⟩ 1 = 0 := congrFun e5 1
    show i ∈ ((View.whole main_v26).slice (win0_5.rect ⟨(i 0).val / 5000, hN⟩)).set
    rw [View.set_slice_whole, Rect.mem_set_unit]
    intro a
    match a with
    | ⟨0, _⟩ => show win0_5.index ⟨(i 0).val / 5000, hN⟩ 0 * 5000 ≤ (i 0).val ∧ (i 0).val < win0_5.index ⟨(i 0).val / 5000, hN⟩ 0 * 5000 + 5000; omega
    | ⟨1, _⟩ => show win0_5.index ⟨(i 0).val / 5000, hN⟩ 1 * 128 ≤ (i 1).val ∧ (i 1).val < win0_5.index ⟨(i 0).val / 5000, hN⟩ 1 * 128 + 128; omega

/-- What point t of region 1 writes back is block t of the layer's whole-array function. -/
theorem flushed1 (c : Dev nD) (t : Fin cfg1.N) :
    (dat1 V c).flushed 5 t = ((cfg1.win 5).blk t).view.read (Elt Ideal)
      (layer1 (V c main_v38) (V c main_v26) (V c main_arg5) (V c main_arg6) (V c main_v39)) := by
  show (cfg1.win 5).cut (grid1.coords t) ((dat1 V c).after 5 t) = _
  rw [after1_5]
  unfold out1_5
  rw [View.canon_unit_zero zero_offsets]
  simp only [View.ld_unit_zero (S := S5000x128) zero_offsets, View.ld_unit_zero (S := S128x64) zero_offsets,
    View.ld_unit_zero (S := S1x64) zero_offsets]
  obtain ⟨e0, e1, e2, e3, e4, e5⟩ := blocks1 t
  have ht : t.val < 10 := by have h := t.isLt; have hN : cfg1.N = 10 := N_1; omega
  have h00 : win1_0.index t 0 = t.val := congrFun e0 0
  have h01 : win1_0.index t 1 = 0 := congrFun e0 1
  have h10 : win1_1.index t 0 = t.val := congrFun e1 0
  have h11 : win1_1.index t 1 = 0 := congrFun e1 1
  have h20 : win1_2.index t 0 = 0 := congrFun e2 0
  have h21 : win1_2.index t 1 = 0 := congrFun e2 1
  have h30 : win1_3.index t 0 = 0 := congrFun e3 0
  have h31 : win1_3.index t 1 = 0 := congrFun e3 1
  have h40 : win1_4.index t 0 = 0 := congrFun e4 0
  have h41 : win1_4.index t 1 = 0 := congrFun e4 1
  have h50 : win1_5.index t 0 = t.val := congrFun e5 0
  have h51 : win1_5.index t 1 = 0 := congrFun e5 1
  refine funext fun (j : S5000x64.Idx) => ?_
  obtain ⟨p, q, rfl⟩ : ∃ (p : Fin 5000) (q : Fin 64), j = ix2 p q := ⟨j 0, j 1, eq_ix2 j⟩
  refine (pay1_apply (iblk1 V c 0 t) (iblk1 V c 1 t) (iblk1 V c 2 t) (iblk1 V c 3 t) (iblk1 V c 4 t) p q).trans ?_
  rw [View.read_apply]
  have hr : ((View.whole main_v40).slice ((win1 5).rect t)).emb (ix2 p q) = ix2 (⟨t.val * 5000 + p.val, by omega⟩ : Fin 50000) q :=
    funext fun a => Fin.ext (by
      match a with
      | ⟨0, _⟩ => show win1_5.index t 0 * 5000 + 1 * p.val = t.val * 5000 + p.val; omega
      | ⟨1, _⟩ => show win1_5.index t 1 * 64 + 1 * q.val = q.val; omega)
  rw [hr]
  have hA : ∀ k : Fin 128, iblk1 V c 0 t (ix2 p k) = V c main_v38 (ix2 (⟨t.val * 5000 + p.val, by omega⟩ : Fin 50000) k) := fun k =>
    congrArg (V c main_v38) (funext fun a => Fin.ext (by
      match a with
      | ⟨0, _⟩ => show win1_0.index t 0 * 5000 + 1 * p.val = t.val * 5000 + p.val; omega
      | ⟨1, _⟩ => show win1_0.index t 1 * 128 + 1 * k.val = k.val; omega))
  have hX : ∀ k : Fin 128, iblk1 V c 1 t (ix2 p k) = V c main_v26 (ix2 (⟨t.val * 5000 + p.val, by omega⟩ : Fin 50000) k) := fun k =>
    congrArg (V c main_v26) (funext fun a => Fin.ext (by
      match a with
      | ⟨0, _⟩ => show win1_1.index t 0 * 5000 + 1 * p.val = t.val * 5000 + p.val; omega
      | ⟨1, _⟩ => show win1_1.index t 1 * 128 + 1 * k.val = k.val; omega))
  have hWl : ∀ k : Fin 128, iblk1 V c 2 t (ix2 k q) = V c main_arg5 (ix2 k q) := fun k =>
    congrArg (V c main_arg5) (funext fun a => Fin.ext (by
      match a with
      | ⟨0, _⟩ => show win1_2.index t 0 * 128 + 1 * k.val = k.val; omega
      | ⟨1, _⟩ => show win1_2.index t 1 * 64 + 1 * q.val = q.val; omega))
  have hWr : ∀ k : Fin 128, iblk1 V c 3 t (ix2 k q) = V c main_arg6 (ix2 k q) := fun k =>
    congrArg (V c main_arg6) (funext fun a => Fin.ext (by
      match a with
      | ⟨0, _⟩ => show win1_3.index t 0 * 128 + 1 * k.val = k.val; omega
      | ⟨1, _⟩ => show win1_3.index t 1 * 64 + 1 * q.val = q.val; omega))
  have hB : iblk1 V c 4 t (ix2 (0 : Fin 1) q) = V c main_v39 (ix2 (0 : Fin 1) q) :=
    congrArg (V c main_v39) (funext fun a => Fin.ext (by
      match a with
      | ⟨0, _⟩ => show win1_4.index t 0 * 1 + 1 * 0 = 0; omega
      | ⟨1, _⟩ => show win1_4.index t 1 * 64 + 1 * q.val = q.val; omega))
  unfold layer1 entry
  simp only [hA, hX, hWl, hWr, hB]
  rfl

/-- After region 1 the result array holds the layer's whole-array function of the arrays the region found. -/
theorem array1 (c : Dev nD) :
    (dat1 V c).arrAt 5 cfg1.N = layer1 (V c main_v38) (V c main_v26) (V c main_arg5) (V c main_arg6) (V c main_v39) :=
  (dat1 V c).arrAt_eq_of_cover 5 _ (fun t _ => flushed1 V c t) fun i => by
    have hi0 : (i 0).val < 50000 := (i 0).isLt
    have hi1 : (i 1).val < 64 := (i 1).isLt
    have hN : (i 0).val / 5000 < cfg1.N := by have hN : cfg1.N = 10 := N_1; omega
    refine ⟨⟨(i 0).val / 5000, hN⟩, flush1_5 _, ?_⟩
    obtain ⟨-, -, -, -, -, e5⟩ := blocks1 ⟨(i 0).val / 5000, hN⟩
    have h50 : win1_5.index ⟨(i 0).val / 5000, hN⟩ 0 = (i 0).val / 5000 := congrFun e5 0
    have h51 : win1_5.index ⟨(i 0).val / 5000, hN⟩ 1 = 0 := congrFun e5 1
    show i ∈ ((View.whole main_v40).slice (win1_5.rect ⟨(i 0).val / 5000, hN⟩)).set
    rw [View.set_slice_whole, Rect.mem_set_unit]
    intro a
    match a with
    | ⟨0, _⟩ => show win1_5.index ⟨(i 0).val / 5000, hN⟩ 0 * 5000 ≤ (i 0).val ∧ (i 0).val < win1_5.index ⟨(i 0).val / 5000, hN⟩ 0 * 5000 + 5000; omega
    | ⟨1, _⟩ => show win1_5.index ⟨(i 0).val / 5000, hN⟩ 1 * 64 ≤ (i 1).val ∧ (i 1).val < win1_5.index ⟨(i 0).val / 5000, hN⟩ 1 * 64 + 64; omega

end Cert.KernelIdeal.Sage

end
-- ==== Proof.RefLayers.lean ====
/-
  The reference's two layers as the same whole-array functions.

  The reference forms each layer with two whole matrix products, a sum and the bias row spread over all rows (the first
  layer followed by a maximum with zero). Read at an entry (r, q), a whole matrix product is the sum over the 128
  contracted coordinates of row r of the left factor against column q of the right, and the spread bias is its q-th
  entry: the layer's entry, as the kernel's blocks compute it.
-/
import proofs.«171229_j1082331758914_1_alg».proof.Proof.Gen.ReferenceIdeal.Read
import proofs.«171229_j1082331758914_1_alg».proof.Proof.SageBlocks
import Idealize.ShloMosaic.Lib.ValueLayout

noncomputable section

open scoped BigOperators

namespace Cert.ReferenceIdeal.Sage

open Cert.ReferenceIdeal Cert.ReferenceIdeal.Read Idealize.ShloMosaic Idealize.ShloMosaic.ValueIdx
open Cert.KernelIdeal.Sage (entry layer0 layer1)

/-- The reference's hidden features (after the maximum with zero) are the first layer's whole-array function of its
    mean-aggregated input features, the input features, the first layer's weights and its bias as one row. -/
theorem hidden_eq (x0 : (⟨S50000x128, .f32⟩ : BufTy).Contents (Elt Ideal)) (x1 : (⟨S2x640000, .i32⟩ : BufTy).Contents (Elt Ideal))
    (x2 x3 : (⟨S128x128, .f32⟩ : BufTy).Contents (Elt Ideal)) (x4 : (⟨S128, .f32⟩ : BufTy).Contents (Elt Ideal))
    (hc : S128.ShapeCasts S1x128) :
    val_main_v29 (F := Ideal) x0 x1 x2 x3 x4
      = layer0 (val_main_v22 (F := Ideal) x0 x1) x0 x2 x3 (shapeCast S1x128 x4 hc) := by
  funext i
  rw [val_main_v29_apply, val_main_v28_apply, val_main_v25_apply, val_main_v23_apply, val_main_v24_apply,
    val_main_v27_apply, val_main_v26_apply, val_main_call0_v0_apply, val_main_call0_cst_apply]
  unfold layer0 entry
  have eS : shapeCast S1x128 x4 hc (ix2 (0 : Fin 1) (i 1)) = x4 (ix1 (i 1)) := shapeCast_a_1a_apply x4 hc 0 (i 1)
  have el : ∀ k : Fin 128, lidx_main_v23 i k = ix2 (i 0) k := fun k =>
    funext fun a => Fin.ext (by match a with | ⟨0, _⟩ => rfl | ⟨1, _⟩ => rfl)
  have er : ∀ k : Fin 128, ridx_main_v23 i k = ix2 k (i 1) := fun k =>
    funext fun a => Fin.ext (by match a with | ⟨0, _⟩ => rfl | ⟨1, _⟩ => rfl)
  have el' : ∀ k : Fin 128, lidx_main_v24 i k = ix2 (i 0) k := fun k =>
    funext fun a => Fin.ext (by match a with | ⟨0, _⟩ => rfl | ⟨1, _⟩ => rfl)
  have er' : ∀ k : Fin 128, ridx_main_v24 i k = ix2 k (i 1) := fun k =>
    funext fun a => Fin.ext (by match a with | ⟨0, _⟩ => rfl | ⟨1, _⟩ => rfl)
  have eb : idx_main_v26 (idx_main_v27 i) = ix1 (i 1) :=
    funext fun a => Fin.ext (by match a with | ⟨0, _⟩ => rfl)
  simp only [el, er, el', er', eb, eS]
  rfl

/-- The reference's result is the second layer's whole-array function of its mean-aggregated hidden features, the
    hidden features, the second layer's weights and its bias as one row. -/
theorem output_eq (x0 : (⟨S50000x128, .f32⟩ : BufTy).Contents (Elt Ideal)) (x1 : (⟨S2x640000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x64, .f32⟩ : BufTy).Contents (Elt Ideal)) (x7 : (⟨S64, .f32⟩ : BufTy).Contents (Elt Ideal))
    (hc : S64.ShapeCasts S1x64) :
    val_main_v58 (F := Ideal) x0 x1 x2 x3 x4 x5 x6 x7
      = layer1 (val_main_v52 (F := Ideal) x0 x1 x2 x3 x4) (val_main_v29 (F := Ideal) x0 x1 x2 x3 x4) x5 x6 (shapeCast S1x64 x7 hc) := by
  funext i
  rw [val_main_v58_apply, val_main_v55_apply, val_main_v53_apply, val_main_v54_apply, val_main_v57_apply, val_main_v56_apply]
  unfold layer1 entry
  have eS : shapeCast S1x64 x7 hc (ix2 (0 : Fin 1) (i 1)) = x7 (ix1 (i 1)) := shapeCast_a_1a_apply x7 hc 0 (i 1)
  have el : ∀ k : Fin 128, lidx_main_v53 i k = ix2 (i 0) k := fun k =>
    funext fun a => Fin.ext (by match a with | ⟨0, _⟩ => rfl | ⟨1, _⟩ => rfl)
  have er : ∀ k : Fin 128, ridx_main_v53 i k = ix2 k (i 1) := fun k =>
    funext fun a => Fin.ext (by match a with | ⟨0, _⟩ => rfl | ⟨1, _⟩ => rfl)
  have el' : ∀ k : Fin 128, lidx_main_v54 i k = ix2 (i 0) k := fun k =>
    funext fun a => Fin.ext (by match a with | ⟨0, _⟩ => rfl | ⟨1, _⟩ => rfl)
  have er' : ∀ k : Fin 128, ridx_main_v54 i k = ix2 k (i 1) := fun k =>
    funext fun a => Fin.ext (by match a with | ⟨0, _⟩ => rfl | ⟨1, _⟩ => rfl)
  have eb : idx_main_v56 (idx_main_v57 i) = ix1 (i 1) :=
    funext fun a => Fin.ext (by match a with | ⟨0, _⟩ => rfl)
  simp only [el, er, el', er', eb, eS]
  rfl

end Cert.ReferenceIdeal.Sage

end
-- ==== Proof.MeanLaw.lean ====
/-
  The mean over a node's in-neighbours, two ways.

  Both programs divide a node's summed messages by  max(deg, 1),  deg the node's in-degree. The kernel program first
  forms the reciprocal  1 / max(deg, 1)  once per node and multiplies every feature by it; the reference divides every
  feature by  max(deg, 1).  On the extended reals the quotient  x / y  at a divisor y ≠ 0 is  x · y⁻¹,  and
  max(d, 1) ≥ 1 > 0  is never zero, whatever d is (even an infinity), so
      s · (1 / max(d, 1)) = s · (1 · max(d, 1)⁻¹) = s · max(d, 1)⁻¹ = s / max(d, 1)
  for every extended real s: no finiteness is needed. The array form below reads the two broadcasts (a length-50000
  vector to a 50000 × 1 column, the column to 50000 × 128) at an entry and applies that identity there.
-/
import Idealize.ShloMosaic.PureOps.Ideal.Laws
import Idealize.ShloMosaic.Lib.ValueIdx
import Idealize.ShloMosaic.Lib.IdealHost
import Idealize.ShloMosaic.Lib.Pipeline.Value

noncomputable section

namespace Cert.MeanLaw

open Idealize.ShloMosaic Idealize.ShloMosaic.ValueIdx

/-- Multiplying by the reciprocal of max(d, 1) is dividing by max(d, 1), for every extended real s and d. -/
theorem mul_recip_max (s d : EReal) : s * Ideal.div 1 (max d 1) = Ideal.div s (max d 1) := by
  have hne : max d 1 ≠ 0 := ne_of_gt (lt_of_lt_of_le zero_lt_one (le_max_right d 1))
  unfold Ideal.div
  rw [if_neg hne, if_neg hne, one_mul]

abbrev Vec50000 : Shape := ⟨1, ![50000]⟩
abbrev Col50000 : Shape := ⟨2, ![50000, 1]⟩
abbrev Mat50000x128 : Shape := ⟨2, ![50000, 128]⟩
abbrev Scalar0 : Shape := ⟨0, ![]⟩

/-- The per-node vector spread along the 128 features, read at (r, q): the vector at r. -/
theorem spread_apply {α : Type} (h1 : Vec50000.BroadcastsInDim Col50000 ![0]) (h2 : Col50000.BroadcastsInDim Mat50000x128 ![0, 1])
    (y : Vec50000.Idx → α) (i : Mat50000x128.Idx) :
    broadcastInDim Mat50000x128 ![0, 1] h2 (broadcastInDim Col50000 ![0] h1 y) i = y (ix1 (i 0)) := by
  rw [broadcastInDim_apply _ h2 _ i (ix2 (i 0) (0 : Fin 1)) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])]
  exact broadcastInDim_apply _ h1 y (ix2 (i 0) (0 : Fin 1)) (ix1 (i 0)) (fun a => match a with
    | ⟨0, _⟩ => by show (i 0).val = if (50000 : Nat) = 1 then 0 else (i 0).val; rw [if_neg (by decide)])

/-- The array form: the summed messages times the spread reciprocal of max(deg, 1) are the summed messages divided
    by the spread max(deg, 1). -/
theorem mul_spread_recip (h0 h0' : Scalar0.BroadcastsInDim Vec50000 ![]) (h1 : Vec50000.BroadcastsInDim Col50000 ![0])
    (h2 : Col50000.BroadcastsInDim Mat50000x128 ![0, 1])
    (S : FVec Ideal Mat50000x128 .f32) (D : FVec Ideal Vec50000 .f32) :
    mulf S (broadcastInDim Mat50000x128 ![0, 1] h2 (broadcastInDim Col50000 ![0] h1
        (Host.divf (broadcastInDim Vec50000 ![] h0 (constant (F := Ideal) Scalar0 .f32 0x3F800000#32))
          (maximumf D (broadcastInDim Vec50000 ![] h0' (constant (F := Ideal) Scalar0 .f32 0x3F800000#32))))))
      = Host.divf S (broadcastInDim Mat50000x128 ![0, 1] h2 (broadcastInDim Col50000 ![0] h1
          (maximumf D (broadcastInDim Vec50000 ![] h0' (constant (F := Ideal) Scalar0 .f32 0x3F800000#32))))) := by
  funext i
  rw [mulf_apply, hostDivf_apply, spread_apply, spread_apply, hostDivf_apply, maximumf_apply,
    broadcastInDim_scalar_apply, constant_apply, Ideal.ofBits_one_f32]
  exact mul_recip_max _ _

end Cert.MeanLaw

end
-- ==== Proof.KernelValue.lean ====
/-
  What the kernel program returns, as the reference's own terms.

  Reading the program's four segments in order:
  * the first stretch of host operations leaves the edge endpoints, the per-node reciprocal 1 / max(deg, 1) as a column,
    and the first layer's aggregated input  (scatter-add of the gathered rows) · (the reciprocal spread over the
    features);  by the mean law that product is the reference's quotient by max(deg, 1);
  * the first region leaves the first layer's whole-array function of that and the inputs — the reference's hidden
    features;
  * the second stretch gathers and scatter-adds the hidden features over the same edges and multiplies by the same
    spread reciprocal — again the reference's quotient;
  * the second region leaves the second layer's whole-array function — the reference's result.
-/
import proofs.«171229_j1082331758914_1_alg».proof.Proof.KernelRun
import proofs.«171229_j1082331758914_1_alg».proof.Proof.SageBlocks
import proofs.«171229_j1082331758914_1_alg».proof.Proof.RefLayers
import proofs.«171229_j1082331758914_1_alg».proof.Proof.MeanLaw
import Idealize.ShloMosaic.Lib.StableHlo.Run

set_option maxRecDepth 16384

noncomputable section

namespace Cert.KernelIdeal.Sage

open Cert.KernelIdeal Cert.KernelIdeal.Gen
open Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg)

/-! ## After the first stretch of host operations -/

/-- The edges' source endpoints. -/
theorem entry_src (c : Dev nD) : W1 m ρ c (Proc.devRef .tc main_v1) = val_main_v1 (F := Ideal) (m ((c.tc : Thread nD τ).loc main_arg1)) := by
  unfold W1
  after_results_simp
  rfl

/-- The edges' destination endpoints. -/
theorem entry_dst (c : Dev nD) : W1 m ρ c (Proc.devRef .tc main_v3) = val_main_v3 (F := Ideal) (m ((c.tc : Thread nD τ).loc main_arg1)) := by
  unfold W1
  after_results_simp
  rfl

/-- The per-node reciprocal 1 / max(deg, 1), as a column. -/
def recipCol (x1 : (⟨Cert.ReferenceIdeal.S2x640000, .i32⟩ : BufTy).Contents (Elt Ideal)) : FVec Ideal S50000x1 .f32 :=
  broadcastInDim S50000x1 ![0] Facts₀.bcast_S50000_S50000x1_0
    (Host.divf (val_main_v18 (F := Ideal)) (val_main_v19 (F := Ideal) x1) : FVec Ideal S50000 .f32)

theorem entry_recip (c : Dev nD) : W1 m ρ c (Proc.devRef .tc main_v12) = recipCol (m ((c.tc : Thread nD τ).loc main_arg1)) := by
  unfold W1
  after_results_simp
  rfl

set_option maxHeartbeats 1000000 in
/-- Summed messages times the spread reciprocal are the reference's mean: the summed messages divided by the spread
    max(deg, 1). -/
theorem mean_form (x1 : (⟨Cert.ReferenceIdeal.S2x640000, .i32⟩ : BufTy).Contents (Elt Ideal)) (S : FVec Ideal S50000x128 .f32) :
    mulf S (broadcastInDim S50000x128 ![0, 1] Facts₀.bcast_S50000x1_S50000x128_0_1 (recipCol x1))
      = Host.divf S (val_main_v21 (F := Ideal) x1) := by
  unfold recipCol val_main_v21 val_main_v20 val_main_v19 val_main_v18 val_main_cst_3
  exact Cert.MeanLaw.mul_spread_recip _ _ _ _ S (val_main_v17 (F := Ideal) x1)

/-- The first layer's aggregated input is the reference's. -/
theorem entry_agg (c : Dev nD) : W1 m ρ c (Proc.devRef .tc main_v24) = val_main_v22 (F := Ideal) (m ((c.tc : Thread nD τ).loc main_arg0)) (m ((c.tc : Thread nD τ).loc main_arg1)) := by
  unfold W1
  after_results_simp
  refine (Cert.MeanLaw.mul_spread_recip _ _ _ _ _ _).trans ?_
  rfl

/-- The first layer's bias as one row. -/
theorem entry_bias (c : Dev nD) : W1 m ρ c (Proc.devRef .tc main_v25) = shapeCast S1x128 (m ((c.tc : Thread nD τ).loc main_arg4)) Facts₀.shapeCasts_S128_S1x128 := by
  unfold W1
  after_results_simp
  rfl

theorem entry_arg0 (c : Dev nD) : W1 m ρ c (Proc.devRef .tc main_arg0) = (m ((c.tc : Thread nD τ).loc main_arg0)) := by
  unfold W1
  after_results_simp <;> rfl
theorem entry_arg2 (c : Dev nD) : W1 m ρ c (Proc.devRef .tc main_arg2) = (m ((c.tc : Thread nD τ).loc main_arg2)) := by
  unfold W1
  after_results_simp <;> rfl
theorem entry_arg3 (c : Dev nD) : W1 m ρ c (Proc.devRef .tc main_arg3) = (m ((c.tc : Thread nD τ).loc main_arg3)) := by
  unfold W1
  after_results_simp <;> rfl
theorem entry_arg5 (c : Dev nD) : W1 m ρ c (Proc.devRef .tc main_arg5) = (m ((c.tc : Thread nD τ).loc main_arg5)) := by
  unfold W1
  after_results_simp <;> rfl
theorem entry_arg6 (c : Dev nD) : W1 m ρ c (Proc.devRef .tc main_arg6) = (m ((c.tc : Thread nD τ).loc main_arg6)) := by
  unfold W1
  after_results_simp <;> rfl
theorem entry_arg7 (c : Dev nD) : W1 m ρ c (Proc.devRef .tc main_arg7) = (m ((c.tc : Thread nD τ).loc main_arg7)) := by
  unfold W1
  after_results_simp <;> rfl

/-! ## After the first region -/

/-- The first region leaves the reference's hidden features. -/
theorem hidden (c : Dev nD) : W2 m ρ c (Proc.devRef .tc main_v26) = val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W2_arr m ρ c 5).trans ((array0 (V1 m ρ) c).trans ?_)
  show layer0 (W1 m ρ c (Proc.devRef .tc main_v24)) (W1 m ρ c (Proc.devRef .tc main_arg0)) (W1 m ρ c (Proc.devRef .tc main_arg2))
    (W1 m ρ c (Proc.devRef .tc main_arg3)) (W1 m ρ c (Proc.devRef .tc main_v25)) = _
  rw [entry_agg, entry_arg0, entry_arg2, entry_arg3, entry_bias]
  exact (Cert.ReferenceIdeal.Sage.hidden_eq _ _ _ _ _ _).symm

theorem mid_src (c : Dev nD) : W2 m ρ c (Proc.devRef .tc main_v1) = val_main_v1 (F := Ideal) (m ((c.tc : Thread nD τ).loc main_arg1)) :=
  (W2_of_ne m ρ c main_v1 (by decide)).trans (entry_src m ρ c)
theorem mid_dst (c : Dev nD) : W2 m ρ c (Proc.devRef .tc main_v3) = val_main_v3 (F := Ideal) (m ((c.tc : Thread nD τ).loc main_arg1)) :=
  (W2_of_ne m ρ c main_v3 (by decide)).trans (entry_dst m ρ c)
theorem mid_recip (c : Dev nD) : W2 m ρ c (Proc.devRef .tc main_v12) = recipCol (m ((c.tc : Thread nD τ).loc main_arg1)) :=
  (W2_of_ne m ρ c main_v12 (by decide)).trans (entry_recip m ρ c)
theorem mid_arg5 (c : Dev nD) : W2 m ρ c (Proc.devRef .tc main_arg5) = (m ((c.tc : Thread nD τ).loc main_arg5)) :=
  (W2_of_ne m ρ c main_arg5 (by decide)).trans (entry_arg5 m ρ c)
theorem mid_arg6 (c : Dev nD) : W2 m ρ c (Proc.devRef .tc main_arg6) = (m ((c.tc : Thread nD τ).loc main_arg6)) :=
  (W2_of_ne m ρ c main_arg6 (by decide)).trans (entry_arg6 m ρ c)
theorem mid_arg7 (c : Dev nD) : W2 m ρ c (Proc.devRef .tc main_arg7) = (m ((c.tc : Thread nD τ).loc main_arg7)) :=
  (W2_of_ne m ρ c main_arg7 (by decide)).trans (entry_arg7 m ρ c)

/-! ## After the second stretch of host operations -/

set_option maxHeartbeats 2000000 in
/-- The second layer's aggregated input is the reference's. -/
theorem second_agg (c : Dev nD) : W3 m ρ c (Proc.devRef .tc main_v38) = val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W3
  after_results_simp
  rw [hidden, mid_src, mid_dst, mid_recip]
  exact (mean_form (m ((c.tc : Thread nD τ).loc main_arg1)) _).trans rfl

theorem second_hidden (c : Dev nD) : W3 m ρ c (Proc.devRef .tc main_v26) = val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W3
  after_results_simp
  exact hidden m ρ c

/-- The second layer's bias as one row. -/
theorem second_bias (c : Dev nD) : W3 m ρ c (Proc.devRef .tc main_v39) = shapeCast S1x64 (m ((c.tc : Thread nD τ).loc main_arg7)) Facts₀.shapeCasts_S64_S1x64 := by
  unfold W3
  after_results_simp
  rw [mid_arg7]
  rfl

theorem second_arg5 (c : Dev nD) : W3 m ρ c (Proc.devRef .tc main_arg5) = (m ((c.tc : Thread nD τ).loc main_arg5)) := by
  unfold W3
  after_results_simp
  exact mid_arg5 m ρ c
theorem second_arg6 (c : Dev nD) : W3 m ρ c (Proc.devRef .tc main_arg6) = (m ((c.tc : Thread nD τ).loc main_arg6)) := by
  unfold W3
  after_results_simp
  exact mid_arg6 m ρ c

/-! ## After the second region -/

/-- The second region leaves the reference's result. -/
theorem result_eq (c : Dev nD) : (dat1 (V3 m ρ) c).arrAt 5 cfg1.N = val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (array1 (V3 m ρ) c).trans ?_
  show layer1 (W3 m ρ c (Proc.devRef .tc main_v38)) (W3 m ρ c (Proc.devRef .tc main_v26)) (W3 m ρ c (Proc.devRef .tc main_arg5))
    (W3 m ρ c (Proc.devRef .tc main_arg6)) (W3 m ρ c (Proc.devRef .tc main_v39)) = _
  rw [second_agg, second_hidden, second_arg5, second_arg6, second_bias]
  exact (Cert.ReferenceIdeal.Sage.output_eq _ _ _ _ _ _ _ _ _).symm

/-- The kernel program's run: it terminates without a fault, returns the reference's term of its argument arrays, and
    leaves the arguments unchanged. -/
theorem run_value : θ_run defs (onTc (τ := τ) (main (F := Ideal))) ⟨m, fun _ => 0, ρ⟩ (fun r => ∀ c : Dev nD,
      r.2.mem ((c.tc : Thread nD τ).loc main_v40) = val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (run_result m ρ)

end Cert.KernelIdeal.Sage

end
-- ==== Proof.lean ====
/-
  A two-layer GraphSAGE forward pass with mean aggregation, as a Pallas program and as plain jnp: equal results over
  the extended reals.

  Both programs compute, for node features x, edges (src → dst), weights and biases,
      agg₁ = (Σ_{edges into i} x[src]) / max(deg(i), 1),    h   = max(agg₁·W1l + x·W1r + b1, 0),
      agg₂ = (Σ_{edges into i} h[src]) / max(deg(i), 1),    out = agg₂·W2l + h·W2r + b2,
  with the same gather, scatter-add, index normalisation and degree count on the host. They differ in two places.
  The kernel program forms the reciprocal 1 / max(deg, 1) once and multiplies by it where the reference divides:
  since max(deg, 1) ≥ 1 is never zero, multiplying by the reciprocal IS the extended reals' quotient, for every
  numerator (MeanLaw). And the kernel program computes each layer's  A·Wl + X·Wr + b  block by block, 5000 rows at a
  time in ten grid points, with the operands cast to bf16 — the identity at the exact instance — and each product
  accumulated into zeros: every entry is the same sum over the 128 contracted coordinates as the reference's whole
  matrix products give (SageBody, SageBlocks, RefLayers). The run of the four segments — host operations, first
  region, host operations, second region — is read in KernelRun, and KernelValue follows the values through it: the
  returned array is the reference's own term of the arguments. The precondition (finite inputs) is not needed by
  any step.

  The three frames are the generated ones (the reference's is its generated run with the result dropped); the
  idealization rewrote nothing, so there is nothing to preserve.
-/
import proofs.«171229_j1082331758914_1_alg».proof.Defs
import proofs.«171229_j1082331758914_1_alg».proof.Proof.Gen.Kernel
import proofs.«171229_j1082331758914_1_alg».proof.Proof.Gen.Kernel.Skeleton
import proofs.«171229_j1082331758914_1_alg».proof.Proof.Gen.Kernel.Launch
import proofs.«171229_j1082331758914_1_alg».proof.Proof.Gen.Kernel.Points
import proofs.«171229_j1082331758914_1_alg».proof.Proof.Gen.Kernel.Frame
import proofs.«171229_j1082331758914_1_alg».proof.Proof.Gen.KernelIdeal
import proofs.«171229_j1082331758914_1_alg».proof.Proof.Gen.KernelIdeal.Skeleton
import proofs.«171229_j1082331758914_1_alg».proof.Proof.Gen.KernelIdeal.Launch
import proofs.«171229_j1082331758914_1_alg».proof.Proof.Gen.KernelIdeal.Points
import proofs.«171229_j1082331758914_1_alg».proof.Proof.Gen.KernelIdeal.Frame
import proofs.«171229_j1082331758914_1_alg».proof.Proof.Gen.ReferenceIdeal
import proofs.«171229_j1082331758914_1_alg».proof.Proof.Gen.ReferenceIdeal.Run
import proofs.«171229_j1082331758914_1_alg».proof.Proof.Gen.ReferenceIdeal.Read
import proofs.«171229_j1082331758914_1_alg».proof.Proof.Gen.Pre_finite_inputs
import proofs.«171229_j1082331758914_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs run, and both return the reference's composed term of the
    arguments: the kernel program by following its four segments, the reference by its own run. -/
theorem algebraic : Cert.algebraic_KernelIdeal_ReferenceIdeal := by
  intro m ρ m' ρ' _ hagree
  refine ⟨fun c => Cert.ReferenceIdeal.Read.val_main_v58 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Sage.run_value m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  refine (Cert.ReferenceIdeal.Read.val_main_v58_eq m' c).trans ?_
  rw [a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
